-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S1024x256 : Shape := ⟨2, ![1024, 256]⟩
abbrev S256x2048 : Shape := ⟨2, ![256, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .local _ .vmem, ⟨0, _⟩ => ⟨S1024x256, .f32⟩
  | .local _ .vmem, ⟨1, _⟩ => ⟨S1024x256, .f32⟩
  | .local _ .vmem, ⟨2, _⟩ => ⟨S256x2048, .f32⟩
  | .local _ .vmem, ⟨3, _⟩ => ⟨S256x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x4096.size a
  hwx0_0 : ∀ i : grid0.Coords, EltTy.bits .f32 = 32 ∨ (Rect.block (s := S4096x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x4096.size a
  hwx0_1 : ∀ i : grid0.Coords, EltTy.bits .f32 = 32 ∨ (Rect.block (s := S4096x4096) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x4096.size a
  hwx0_2 : ∀ i : grid0.Coords, EltTy.bits .f32 = 32 ∨ (Rect.block (s := S4096x4096) S1024x2048.size (cc0_transform_2 i) (hinb0_2 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What one grid point leaves behind, as values. The body keeps an accumulator in a scratch buffer: at the first
  step of a contraction run (k = 0) it stores the zero block there, then at every step it adds to the accumulator the
  product of the two operand blocks (each narrowed and shifted by the zero point) and copies the accumulator to the
  output block. So after a step the scratch and the output block hold the same thing: the step's payload applied to
  the two operand blocks and to what the accumulator held before (the zero block at a first step).
-/
import proofs.«144084_j31842887533435_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

/-- Every load and store of the body is through the whole buffer: offsets zero. -/
theorem hz : (![0, 0] : Fin 2 → Nat) = fun _ => 0 := funext fun a => by fin_cases a <;> rfl

/-- A later step (k ≠ 0) leaves in the accumulator the payload over what the accumulator held. -/
theorem acc_later (c : Dev nD) (i : grid0.Coords) (a3 : Memref sig .tc .vmem S1024x256 .f32) (h3 : a3.IsWhole)
    (a4 : Memref sig .tc .vmem S256x2048 .f32) (h4 : a4.IsWhole) (a5 : Memref sig .tc .vmem S1024x2048 .f32) (h5 : a5.IsWhole)
    (a6 : Memref sig .tc .vmem S1024x2048 .f32) (h6 : a6.IsWhole) (hc : ¬cond0_0 i)
    (x0 : Vec F S1024x256 .f32) (x1 : Vec F S256x2048 .f32) (xs : Vec F S1024x2048 .f32) :
    sout0_B_0 c i a3 h3 a4 h4 a5 h5 a6 h6 hc x0 x1 xs = k0_pay2 x0 x1 xs := by
  unfold sout0_B_0
  rw [View.read_writes_eq_canon _ _ _ (scover0_B_0 c i a3 h3 a4 h4 a5 h5 a6 h6 hc x0 x1 xs)]
  unfold kernelRun0_B
  dsimp only
  sl_unfold_words
  rw [View.canon_unit_zero (S := S1024x2048) hz]
  simp only [View.readAt_eq_ld, h3.read_unread, h4.read_unread, h6.read_unread, View.ld_unit_zero (S := S1024x256) hz,
    View.ld_unit_zero (S := S256x2048) hz, View.ld_unit_zero (S := S1024x2048) hz]

/-- A first step (k = 0) leaves in the accumulator the payload over the zero block it has just stored there. -/
theorem acc_first (c : Dev nD) (i : grid0.Coords) (a3 : Memref sig .tc .vmem S1024x256 .f32) (h3 : a3.IsWhole)
    (a4 : Memref sig .tc .vmem S256x2048 .f32) (h4 : a4.IsWhole) (a5 : Memref sig .tc .vmem S1024x2048 .f32) (h5 : a5.IsWhole)
    (a6 : Memref sig .tc .vmem S1024x2048 .f32) (h6 : a6.IsWhole) (hc : cond0_0 i)
    (x0 : Vec F S1024x256 .f32) (x1 : Vec F S256x2048 .f32) :
    sout0_A_0 c i a3 h3 a4 h4 a5 h5 a6 h6 hc x0 x1 = k0_pay2 x0 x1 k0_pay1 := by
  unfold sout0_A_0
  rw [View.read_writes_eq_canon _ _ _ (scover0_A_0 c i a3 h3 a4 h4 a5 h5 a6 h6 hc x0 x1)]
  unfold kernelRun0_A
  dsimp only
  sl_unfold_words
  rw [View.canon_cons_unit_zero (S := S1024x2048) hz, View.readCov_unit_zero (S := S1024x2048) _ hz]
  simp only [View.readAt_eq_ld, h3.read_unread, h4.read_unread, View.ld_unit_zero (S := S1024x256) hz,
    View.ld_unit_zero (S := S256x2048) hz]

/-- A later step copies the accumulator it has just updated to the output block. -/
theorem out_later (c : Dev nD) (i : grid0.Coords) (a3 : Memref sig .tc .vmem S1024x256 .f32) (h3 : a3.IsWhole)
    (a4 : Memref sig .tc .vmem S256x2048 .f32) (h4 : a4.IsWhole) (a5 : Memref sig .tc .vmem S1024x2048 .f32) (h5 : a5.IsWhole)
    (a6 : Memref sig .tc .vmem S1024x2048 .f32) (h6 : a6.IsWhole) (hc : ¬cond0_0 i)
    (x0 : Vec F S1024x256 .f32) (x1 : Vec F S256x2048 .f32) (xs : Vec F S1024x2048 .f32) :
    out0_B_2 c i a3 h3 a4 h4 a5 h5 a6 h6 hc x0 x1 xs = k0_pay2 x0 x1 xs := by
  unfold out0_B_2
  rw [View.read_writes_eq_canon _ _ _ (cover0_B_2 c i a3 h3 a4 h4 a5 h5 a6 h6 hc x0 x1 xs)]
  unfold kernelRun0_B
  dsimp only
  sl_unfold_words
  rw [View.canon_unit_zero (S := S1024x2048) hz, View.readCov_unit_zero (S := S1024x2048) _ hz]
  simp only [View.readAt_eq_ld, h3.read_unread, h4.read_unread, h6.read_unread, View.ld_unit_zero (S := S1024x256) hz,
    View.ld_unit_zero (S := S256x2048) hz, View.ld_unit_zero (S := S1024x2048) hz]

/-- So does a first step. -/
theorem out_first (c : Dev nD) (i : grid0.Coords) (a3 : Memref sig .tc .vmem S1024x256 .f32) (h3 : a3.IsWhole)
    (a4 : Memref sig .tc .vmem S256x2048 .f32) (h4 : a4.IsWhole) (a5 : Memref sig .tc .vmem S1024x2048 .f32) (h5 : a5.IsWhole)
    (a6 : Memref sig .tc .vmem S1024x2048 .f32) (h6 : a6.IsWhole) (hc : cond0_0 i)
    (x0 : Vec F S1024x256 .f32) (x1 : Vec F S256x2048 .f32) :
    out0_A_2 c i a3 h3 a4 h4 a5 h5 a6 h6 hc x0 x1 = k0_pay2 x0 x1 k0_pay1 := by
  unfold out0_A_2
  rw [View.read_writes_eq_canon _ _ _ (cover0_A_2 c i a3 h3 a4 h4 a5 h5 a6 h6 hc x0 x1)]
  unfold kernelRun0_A
  dsimp only
  sl_unfold_words
  rw [View.canon_unit_zero (S := S1024x2048) hz, View.readCov_cons_toLoadRect, View.readCov_unit_zero (S := S1024x2048) _ hz]
  simp only [View.readAt_eq_ld, h3.read_unread, h4.read_unread, View.ld_unit_zero (S := S1024x256) hz,
    View.ld_unit_zero (S := S256x2048) hz]

end Cert.KernelIdeal.Pieces

end
-- ==== Proof.Consts.lean ====
/-
  The two spellings of the zero point. The kernel subtracts the bf16 constant 128 from each operand block after
  narrowing it; the reference subtracts the f32 constant 128 from each whole operand. At the ideal values a float
  constant is the extended real its bit pattern denotes, and both patterns denote the real number 128.
-/
import Idealize.ShloMosaic.PureOps.Ideal

noncomputable section

namespace Cert.Consts

open Idealize.ShloMosaic

/-- The f32 pattern of `128.0` denotes the real 128. -/
theorem ofBits_128_f32 : Ideal.ofBits .f32 0x43000000#32 = ((128 : ℝ) : EReal) := by
  simp [Ideal.ofBits, Ideal.ieee, -EReal.coe_mul]; norm_num

/-- The bf16 pattern of `128.0` denotes the real 128. -/
theorem ofBits_128_bf16 : Ideal.ofBits .bf16 0x4300#16 = ((128 : ℝ) : EReal) := by
  simp [Ideal.ofBits, Ideal.ieee, -EReal.coe_mul]

/-- The zero point as both programs read it (the f32 spelling): the real number 128. -/
abbrev zp : EReal := Ideal.ofBits .f32 0x43000000#32

/-- So the kernel's zero point is the reference's. -/
theorem ofBits_128_bf16_eq_f32 : Ideal.ofBits .bf16 0x4300#16 = Ideal.ofBits .f32 0x43000000#32 :=
  ofBits_128_bf16.trans ofBits_128_f32.symm

end Cert.Consts

end
-- ==== Proof.Payload.lean ====
/-
  One step's payload, read at an entry, at the ideal values. Narrowing to bf16 is the identity there, so at row p and
  column q of the 1024 × 2048 block the step adds to the accumulator the contraction, over the 256 columns k of the
  left block, of (left entry (p, k) minus the zero point) times (right entry (k, q) minus the zero point). The stored
  zero block reads 0 everywhere.
-/
import proofs.«144084_j31842887533435_2_alg».proof.Proof.Gen.KernelIdeal.Skeleton
import proofs.«144084_j31842887533435_2_alg».proof.Proof.Consts
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.Payload

open Cert.KernelIdeal Cert.KernelIdeal.Gen Cert.Consts

/-- The stored zero block is 0 at every entry. -/
theorem zero_apply (j : S1024x2048.Idx) : k0_pay1 (F := Ideal) j = 0 := by
  unfold k0_pay1
  simp only [shapeCast_self]
  show Ideal.ofBits .f32 0x00000000#32 = 0
  exact Ideal.ofBits_zero_f32

/-- The left operand of the step's product at (p, k) is in row p, -/
theorem lhs_row (j : S1024x2048.Idx) (q : dot_S1024x256_S256x2048_S1024x2048_1_0_0_1_n_n.contr.Idx) :
    (dot_S1024x256_S256x2048_S1024x2048_1_0_0_1_n_n.lhsIdx j q 0).val = (j 0).val := by
  unfold DotDims.lhsIdx
  rw [dif_neg (show ¬(0 : Fin S1024x256.rank) ∈ dot_S1024x256_S256x2048_S1024x2048_1_0_0_1_n_n.lhsBatch by decide),
    dif_pos (show (0 : Fin S1024x256.rank) ∈ dot_S1024x256_S256x2048_S1024x2048_1_0_0_1_n_n.lhsNonContracting by decide)]
  rfl

/-- and the right operand at (k, q) is in column q. -/
theorem rhs_col (j : S1024x2048.Idx) (q : dot_S1024x256_S256x2048_S1024x2048_1_0_0_1_n_n.contr.Idx) :
    (dot_S1024x256_S256x2048_S1024x2048_1_0_0_1_n_n.rhsIdx j q 1).val = (j 1).val := by
  unfold DotDims.rhsIdx
  rw [dif_neg (show ¬(1 : Fin S256x2048.rank) ∈ dot_S1024x256_S256x2048_S1024x2048_1_0_0_1_n_n.rhsBatch by decide),
    dif_pos (show (1 : Fin S256x2048.rank) ∈ dot_S1024x256_S256x2048_S1024x2048_1_0_0_1_n_n.rhsNonContracting by decide)]
  rfl

/-- The step's payload at (p, q): the accumulator's entry plus the 256-term contraction of the shifted blocks. -/
theorem step_apply (x0 : Vec Ideal S1024x256 .f32) (x1 : Vec Ideal S256x2048 .f32) (acc : Vec Ideal S1024x2048 .f32)
    (p : Fin 1024) (q : Fin 2048) :
    k0_pay2 (F := Ideal) x0 x1 acc (ix2 p q)
      = acc (ix2 p q) + ∑ k : Fin 256, (x0 (ix2 p k) - zp) * (x1 (ix2 k q) - zp) := by
  unfold k0_pay2
  simp only [shapeCast_self]
  rw [addf_apply]
  refine congrArg (acc (ix2 p q) + ·) ?_
  simp only [matmul]
  rw [Ideal.matmul_constant_zero_apply,
    ← Equiv.sum_comp (contrEquiv1 dot_S1024x256_S256x2048_S1024x2048_1_0_0_1_n_n 256 rfl rfl).symm]
  refine Finset.sum_congr rfl fun k _ => ?_
  have hk := contrEquiv1_symm_val dot_S1024x256_S256x2048_S1024x2048_1_0_0_1_n_n 256 rfl rfl k
  have el : dot_S1024x256_S256x2048_S1024x2048_1_0_0_1_n_n.lhsIdx (ix2 p q)
      ((contrEquiv1 dot_S1024x256_S256x2048_S1024x2048_1_0_0_1_n_n 256 rfl rfl).symm k) = ix2 p k :=
    funext fun a => Fin.ext (by
      match a with
      | ⟨0, _⟩ => exact lhs_row _ _
      | ⟨1, _⟩ => exact (dot_S1024x256_S256x2048_S1024x2048_1_0_0_1_n_n.lhsIdx_val_of_single rfl _ _).trans hk)
  have er : dot_S1024x256_S256x2048_S1024x2048_1_0_0_1_n_n.rhsIdx (ix2 p q)
      ((contrEquiv1 dot_S1024x256_S256x2048_S1024x2048_1_0_0_1_n_n 256 rfl rfl).symm k) = ix2 k q :=
    funext fun a => Fin.ext (by
      match a with
      | ⟨0, _⟩ => exact (dot_S1024x256_S256x2048_S1024x2048_1_0_0_1_n_n.rhsIdx_val_of_single rfl _ _).trans hk
      | ⟨1, _⟩ => exact rhs_col _ _)
  rw [el, er, subf_apply, subf_apply, truncf_apply, truncf_apply, broadcast_apply, broadcast_apply]
  show (x0 (ix2 p k) - Ideal.ofBits .bf16 0x4300#16) * (x1 (ix2 k q) - Ideal.ofBits .bf16 0x4300#16) = _
  rw [Cert.Consts.ofBits_128_bf16_eq_f32]

end Cert.KernelIdeal.Payload

end
-- ==== Proof.LibBlockSumGen.lean ====
/-
  A sum over n = K · B indices is the sum, over the K consecutive blocks of B indices taken in order from zero,
  of the sums inside each block — in any commutative additive monoid, for any K and B. (A contraction that a
  kernel accumulates block by block over a grid axis equals the whole contraction.)
-/
import Mathlib.Algebra.BigOperators.Fin
import Mathlib.Logic.Equiv.Fin.Basic

open scoped BigOperators

namespace Cert.LibBlockSumGen

/-- Index `l` of block `k` is below `K · B`. -/
theorem block_index_lt {K B : ℕ} (k : Fin K) (l : Fin B) : B * k.val + l.val < K * B := by
  have hk := k.isLt
  have hl := l.isLt
  calc B * k.val + l.val < B * k.val + B := by omega
    _ = B * (k.val + 1) := (Nat.mul_succ _ _).symm
    _ ≤ B * K := Nat.mul_le_mul_left _ hk
    _ = K * B := Nat.mul_comm _ _

/-- A sum over `n = K · B` indices as `K` block sums of `B` terms: block `k` holds the indices `B·k, …, B·k + B − 1`. -/
theorem sum_blocks {M : Type*} [AddCommMonoid M] {n K B : ℕ} (h : n = K * B) (f : Fin n → M) :
    ∑ p : Fin n, f p = ∑ k : Fin K, ∑ l : Fin B, f ⟨B * k.val + l.val, h ▸ block_index_lt k l⟩ := by
  subst h
  rw [← Fintype.sum_prod_type' (fun (k : Fin K) (l : Fin B) => f ⟨B * k.val + l.val, block_index_lt k l⟩)]
  refine Fintype.sum_equiv (finProdFinEquiv (m := K) (n := B)).symm _ _ (fun p => ?_)
  congr 1
  apply Fin.ext
  simp only [finProdFinEquiv, Equiv.coe_fn_symm_mk, Fin.coe_divNat, Fin.coe_modNat]
  exact (Nat.div_add_mod p.val B).symm

end Cert.LibBlockSumGen
-- ==== Proof.Spec.lean ====
/-
  The specification, and the one law that joins the two programs.

  The result of both programs at row r and column c of the 4096 × 4096 output is the contraction over k < 4096 of
  (A[r, k] − z) · (B[k, c] − z), with z the zero point, over the extended reals. The reference computes it as one
  contraction; the kernel accumulates it in sixteen consecutive blocks of 256 values of k. The extended reals under
  addition are a commutative monoid, so a sum over 4096 = 16 · 256 indices is the sum of its sixteen block sums:
  no finiteness of the entries is needed.

  Entries are read through `at2`, the array extended by 0 outside its bounds, so that the blocks' row, column and
  contraction positions can be written as plain natural-number expressions.
-/
import proofs.«144084_j31842887533435_2_alg».proof.Proof.Consts
import proofs.«144084_j31842887533435_2_alg».proof.Proof.LibBlockSumGen
import Idealize.ShloMosaic.Lib.ValueIdx

noncomputable section

open Idealize.ShloMosaic Idealize.ShloMosaic.ValueIdx
open scoped BigOperators

namespace Cert.Spec

open Cert.Consts (zp)

/-- The shape of both operands and of the result. -/
abbrev Sq : Shape := ⟨2, ![4096, 4096]⟩

/-- Entry (r, c) of a 4096 × 4096 array; 0 outside the array. -/
def at2 (X : Sq.Idx → EReal) (r c : ℕ) : EReal :=
  if h : r < 4096 ∧ c < 4096 then X (ix2 ⟨r, h.1⟩ ⟨c, h.2⟩) else 0

/-- Inside the array it is the entry. -/
theorem at2_ix2 (X : Sq.Idx → EReal) (a b : Fin 4096) : at2 X a.val b.val = X (ix2 a b) := by
  unfold at2
  rw [dif_pos ⟨a.isLt, b.isLt⟩]

/-- The k-th term of the contraction for row r and column c. -/
def term (A B : Sq.Idx → EReal) (r c k : ℕ) : EReal := (at2 A r k - zp) * (at2 B k c - zp)

/-- The specification: the shifted product (A − z)(B − z), entry by entry. -/
def qmm (A B : Sq.Idx → EReal) : Sq.Idx → EReal :=
  fun i => ∑ k : Fin 4096, term A B (i 0).val (i 1).val k.val

/-- The contraction as sixteen consecutive blocks of 256 terms. -/
theorem contraction_blocks (A B : Sq.Idx → EReal) (r c : ℕ) :
    ∑ k : Fin 4096, term A B r c k.val
      = ∑ s ∈ Finset.range 16, ∑ l : Fin 256, term A B r c (256 * s + l.val) := by
  rw [Cert.LibBlockSumGen.sum_blocks (K := 16) (B := 256) rfl (fun k : Fin 4096 => term A B r c k.val),
    Finset.sum_range (fun s => ∑ l : Fin 256, term A B r c (256 * s + l.val))]

end Cert.Spec

end
-- ==== Proof.Blocks.lean ====
/-
  The operand blocks, read at an entry. At grid point t = 32 i + 16 j + k (i < 4 the row block of the output,
  j < 2 its column block, k < 16 the contraction step) the left block is rows 1024 i … 1024 i + 1023 and columns
  256 k … 256 k + 255 of A, and the right block is rows 256 k … 256 k + 255 and columns 2048 j … 2048 j + 2047 of B.
-/
import proofs.«144084_j31842887533435_2_alg».proof.Proof.Gen.KernelIdeal.Frame
import proofs.«144084_j31842887533435_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The left operand A as launched on core c, -/
abbrev argA (c : Dev nD) : Cert.Spec.Sq.Idx → EReal := m ((c : Thread nD τ).loc main_arg0)
/-- and the right operand B. -/
abbrev argB (c : Dev nD) : Cert.Spec.Sq.Idx → EReal := m ((c : Thread nD τ).loc main_arg1)

/-- The block indices of the three windows at point t, decided over the grid's 128 points. -/
theorem block_index : ∀ t : Fin cfg0.N,
    win0_0.index t (0 : Fin 2) = t.val / 32 ∧ win0_0.index t (1 : Fin 2) = t.val % 16
    ∧ win0_1.index t (0 : Fin 2) = t.val % 16 ∧ win0_1.index t (1 : Fin 2) = t.val / 16 % 2
    ∧ win0_2.index t (0 : Fin 2) = t.val / 32 ∧ win0_2.index t (1 : Fin 2) = t.val / 16 % 2 :=
  (by decide +kernel : ∀ t : Fin grid0.N, _)

/-- The left block at (p, k) is A at (1024 (t / 32) + p, 256 (t mod 16) + k). -/
theorem left_apply (c : Dev nD) (t : Fin cfg0.N) (p : Fin 1024) (k : Fin 256) :
    (iblk m c 0 t : Vec Ideal S1024x256 .f32) (ix2 p k)
      = Cert.Spec.at2 (argA m c) (1024 * (t.val / 32) + p.val) (256 * (t.val % 16) + k.val) := by
  have hN : t.val < 128 := lt_of_lt_of_eq t.isLt N_0
  have hp := p.isLt
  have hk := k.isLt
  have hr : 1024 * (t.val / 32) + p.val < 4096 := by omega
  have hc : 256 * (t.val % 16) + k.val < 4096 := by omega
  obtain ⟨e0, e1, -⟩ := block_index t
  unfold Cert.Spec.at2
  rw [dif_pos ⟨hr, hc⟩]
  unfold iblk
  rw [View.read_apply]
  show V m c main_arg0 _ = m (c.tc.loc main_arg0) _
  unfold V
  congr 1
  funext a
  apply Fin.ext
  match a with
  | ⟨0, _⟩ => show win0_0.index t (0 : Fin 2) * 1024 + 1 * p.val = 1024 * (t.val / 32) + p.val; omega
  | ⟨1, _⟩ => show win0_0.index t (1 : Fin 2) * 256 + 1 * k.val = 256 * (t.val % 16) + k.val; omega

/-- The right block at (k, q) is B at (256 (t mod 16) + k, 2048 (t / 16 mod 2) + q). -/
theorem right_apply (c : Dev nD) (t : Fin cfg0.N) (k : Fin 256) (q : Fin 2048) :
    (iblk m c 1 t : Vec Ideal S256x2048 .f32) (ix2 k q)
      = Cert.Spec.at2 (argB m c) (256 * (t.val % 16) + k.val) (2048 * (t.val / 16 % 2) + q.val) := by
  have hN : t.val < 128 := lt_of_lt_of_eq t.isLt N_0
  have hq := q.isLt
  have hk := k.isLt
  have hr : 256 * (t.val % 16) + k.val < 4096 := by omega
  have hc : 2048 * (t.val / 16 % 2) + q.val < 4096 := by omega
  obtain ⟨-, -, e0, e1, -⟩ := block_index t
  unfold Cert.Spec.at2
  rw [dif_pos ⟨hr, hc⟩]
  unfold iblk
  rw [View.read_apply]
  show V m c main_arg1 _ = m (c.tc.loc main_arg1) _
  unfold V
  congr 1
  funext a
  apply Fin.ext
  match a with
  | ⟨0, _⟩ => show win0_1.index t (0 : Fin 2) * 256 + 1 * k.val = 256 * (t.val % 16) + k.val; omega
  | ⟨1, _⟩ => show win0_1.index t (1 : Fin 2) * 2048 + 1 * q.val = 2048 * (t.val / 16 % 2) + q.val; omega

end Cert.KernelIdeal.Blocks

end
-- ==== Proof.Fold.lean ====
/-
  The accumulator after any grid point. A contraction run is sixteen consecutive points 16 g, …, 16 g + 15 (one output
  block): its first point stores zero and adds its product, every later point adds its product to what the point
  before left. So after point t the accumulator holds, entry by entry, 0 plus the sum of the addends of the points
  16 (t / 16), …, t — and the output block holds the same.
-/
import proofs.«144084_j31842887533435_2_alg».proof.Proof.Gen.KernelIdeal.Value
import proofs.«144084_j31842887533435_2_alg».proof.Proof.Pieces
import proofs.«144084_j31842887533435_2_alg».proof.Proof.Payload
import proofs.«144084_j31842887533435_2_alg».proof.Proof.Blocks

noncomputable section

open Idealize.ShloMosaic Idealize.ShloMosaic.TcCoe Idealize.SL.Sem Idealize.ShloMosaic.ValueIdx
open scoped BigOperators

namespace Cert.KernelIdeal.Fold

open Cert.KernelIdeal Cert.KernelIdeal.Gen Cert.KernelIdeal.Blocks

variable (m : (ℓ : Loc nD τ sig) → Buf (Elt Ideal) ℓ)

/-- What point n adds to entry j of the accumulator: the 256 terms of contraction block n mod 16, for the row and
    column of the output that entry j of output block (n / 32, n / 16 mod 2) is. -/
def addend (c : Dev nD) (n : ℕ) (j : S1024x2048.Idx) : EReal :=
  ∑ k : Fin 256, Cert.Spec.term (argA m c) (argB m c)
    (1024 * (n / 32) + (j 0).val) (2048 * (n / 16 % 2) + (j 1).val) (256 * (n % 16) + k.val)

/-- The step's payload on the blocks of point t: the accumulator's entry plus point t's addend. -/
theorem step_point (c : Dev nD) (t : Fin cfg0.N) (acc : Vec Ideal S1024x2048 .f32) (j : S1024x2048.Idx) :
    k0_pay2 (F := Ideal) (iblk m c 0 t) (iblk m c 1 t) acc j = acc j + addend m c t.val j := by
  obtain ⟨p, q, rfl⟩ : ∃ (p : Fin 1024) (q : Fin 2048), j = ix2 p q := ⟨j 0, j 1, eq_ix2 j⟩
  refine (Payload.step_apply (iblk m c 0 t) (iblk m c 1 t) acc p q).trans ?_
  refine congrArg (acc (ix2 p q) + ·) ?_
  unfold addend Cert.Spec.term
  refine Finset.sum_congr rfl fun k _ => ?_
  rw [left_apply m c t p k, right_apply m c t k q]

/-- At a run's first point the accumulator ends at 0 plus the point's addend, whatever it held. -/
theorem first_point (c : Dev nD) (n : ℕ) (hb : n < cfg0.N) (h0 : n % 16 = 0) (acc : Vec Ideal S1024x2048 .f32)
    (j : S1024x2048.Idx) : Value.scAt0_0 m c n hb acc j = 0 + addend m c n j := by
  unfold Value.scAt0_0
  rw [dif_pos h0]
  refine (congrFun (Pieces.acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _)
    ((hcond0_0 (⟨n, hb⟩ : Fin cfg0.N)).mpr h0) (iblk m c 0 (⟨n, hb⟩ : Fin cfg0.N)) (iblk m c 1 (⟨n, hb⟩ : Fin cfg0.N))) j).trans ?_
  refine (step_point m c ⟨n, hb⟩ _ j).trans ?_
  rw [Payload.zero_apply]

/-- At a later point it ends at what it held plus the point's addend. -/
theorem later_point (c : Dev nD) (n : ℕ) (hb : n < cfg0.N) (h0 : ¬n % 16 = 0) (acc : Vec Ideal S1024x2048 .f32)
    (j : S1024x2048.Idx) : Value.scAt0_0 m c n hb acc j = acc j + addend m c n j := by
  unfold Value.scAt0_0
  rw [dif_neg h0]
  refine (congrFun (Pieces.acc_later (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _)
    (fun h => h0 ((hcond0_0 (⟨n, hb⟩ : Fin cfg0.N)).mp h)) (iblk m c 0 (⟨n, hb⟩ : Fin cfg0.N)) (iblk m c 1 (⟨n, hb⟩ : Fin cfg0.N)) acc) j).trans ?_
  exact step_point m c ⟨n, hb⟩ acc j

/-- THE ACCUMULATOR after point t: 0 plus the addends of its run's points up to t. -/
theorem scratch_after (c : Dev nD) (t : Fin cfg0.N) (j : S1024x2048.Idx) :
    (outsAt0 m c t.val t.isLt).2 j
      = 0 + ∑ s ∈ Finset.range (t.val % 16 + 1), addend m c (16 * (t.val / 16) + s) j := by
  rw [Value.soutsAt0_0_eq m c t]
  have hm : t.val % 16 < 16 := Nat.mod_lt _ (by decide)
  exact Pipeline.accAt_add_apply _ _ (fun _ => (0 : EReal)) (addend m c) (16 * (t.val / 16)) 15
    (fun h i => first_point m c _ h (Nat.mul_mod_right 16 _) _ i)
    (fun n h acc i h1 h2 => later_point m c n h (by omega) acc i)
    (t.val % 16) (by omega) _ j

/-- Every point copies the accumulator it has just updated to the output block: after a point the two agree. -/
theorem out_eq_scratch (c : Dev nD) (t : Fin cfg0.N) :
    (outsAt0 m c t.val t.isLt).1 = (outsAt0 m c t.val t.isLt).2 := by
  by_cases h0 : t.val % 16 = 0
  · rw [outsAt0_A m c t h0]
    dsimp only
    exact (Pieces.out_first (F := Ideal) c (grid0.coords t) (ms0_0 t) (hs0_0 t) (ms0_1 t) (hs0_1 t) (ms0_2 t) (hs0_2 t) scM0_0 (Memref.isWhole_whole _) ((hcond0_0 t).mpr h0) (iblk m c 0 t) (iblk m c 1 t)).trans
      (Pieces.acc_first (F := Ideal) c (grid0.coords t) (ms0_0 t) (hs0_0 t) (ms0_1 t) (hs0_1 t) (ms0_2 t) (hs0_2 t) scM0_0 (Memref.isWhole_whole _) ((hcond0_0 t).mpr h0) (iblk m c 0 t) (iblk m c 1 t)).symm
  · rw [outsAt0_B m c t h0]
    dsimp only
    exact (Pieces.out_later (F := Ideal) c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) _).trans
      (Pieces.acc_later (F := Ideal) c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) _).symm

end Cert.KernelIdeal.Fold

end
-- ==== Proof.Final.lean ====
/-
  The result array after the run. Output block (i, j) is written back once, after the last point 32 i + 16 j + 15 of
  its contraction run; by then the accumulator holds all sixteen addends, which together are the 4096 terms of the
  contraction for each of the block's entries. The eight written blocks tile the 4096 × 4096 array, so it ends
  holding the specification.
-/
import proofs.«144084_j31842887533435_2_alg».proof.Proof.Fold

noncomputable section

open Idealize.ShloMosaic Idealize.ShloMosaic.TcCoe Idealize.SL.Sem Idealize.ShloMosaic.ValueIdx
open Idealize.ShloMosaic.Pipeline (Dat)
open scoped BigOperators

namespace Cert.KernelIdeal.Final

open Cert.KernelIdeal Cert.KernelIdeal.Gen Cert.KernelIdeal.Blocks Cert.KernelIdeal.Fold

variable (m : (ℓ : Loc nD τ sig) → Buf (Elt Ideal) ℓ) (ρ : Dev nD → PrngReg)

/-- The result both programs are compared at: the shifted product of the two operands as launched. -/
abbrev result (c : Dev nD) : Buf (Elt Ideal) ((c : Thread nD τ).loc main_v0) :=
  Cert.Spec.qmm (argA m c) (argB m c)

/-- What a run's last point writes back is its block of the shifted product. -/
theorem flushed_eq (c : Dev nD) (t : Fin cfg0.N) (hf : (cfg0.win 2).flush t = true) :
    (dats m 0 c).flushed 2 t = ((cfg0.win 2).blk t).view.read (Elt Ideal) (result m c) := by
  have h15 : t.val % 16 = 15 := (flush0_2 t).mp hf
  have hN : t.val < 128 := lt_of_lt_of_eq t.isLt N_0
  obtain ⟨-, -, -, -, e0, e1⟩ := block_index t
  rw [Value.flushed2, out_eq_scratch]
  funext j
  show (outsAt0 m c t.val t.isLt).2 j = Cert.Spec.qmm (argA m c) (argB m c) (((cfg0.win 2).blk t).view.emb j)
  have hi0 : ((((cfg0.win 2).blk t).view.emb j) 0).val = 1024 * (t.val / 32) + (j 0).val := by
    show win0_2.index t (0 : Fin 2) * 1024 + 1 * (j 0).val = _
    omega
  have hi1 : ((((cfg0.win 2).blk t).view.emb j) 1).val = 2048 * (t.val / 16 % 2) + (j 1).val := by
    show win0_2.index t (1 : Fin 2) * 2048 + 1 * (j 1).val = _
    omega
  unfold Cert.Spec.qmm
  rw [scratch_after m c t j, h15, zero_add, hi0, hi1, Cert.Spec.contraction_blocks]
  refine Finset.sum_congr rfl fun s hs => ?_
  have hs' : s < 16 := Finset.mem_range.mp hs
  have a0 : (16 * (t.val / 16) + s) / 32 = t.val / 32 := by omega
  have a1 : (16 * (t.val / 16) + s) / 16 % 2 = t.val / 16 % 2 := by omega
  have a2 : (16 * (t.val / 16) + s) % 16 = s := by omega
  unfold addend
  rw [a0, a1, a2]

/-- An entry of the array is in point t's output block iff each coordinate is in the block's range. -/
theorem mem_block (t : Fin cfg0.N) (i : S4096x4096.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v0).slice (win0_2.rect t)).set ↔ _
  rw [View.set_slice_whole, Rect.mem_set_unit]
  exact Iff.rfl

/-- Every entry (r, c) is in the block written back at point 32 (r / 1024) + 16 (c / 2048) + 15. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 128 := N_0
  let t : Fin cfg0.N := ⟨32 * ((i 0).val / 1024) + 16 * ((i 1).val / 2048) + 15, by omega⟩
  have ht : t.val = 32 * ((i 0).val / 1024) + 16 * ((i 1).val / 2048) + 15 := rfl
  obtain ⟨-, -, -, -, e0, e1⟩ := block_index t
  refine ⟨t, (flush0_2 t).mpr (by omega), ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- THE RESULT ARRAY after the run is the shifted product. -/
theorem final (c : Dev nD) : (dats m 0 c).arrAt 2 cfg0.N = result m c :=
  (dats m 0 c).arrAt_eq_of_cover 2 (result m c) (flushed_eq m c) covered

/-- The kernel's run, read: the result array at the shifted product of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.RefValue.lean ====
/-
  The reference is the specification. Its last operation is one contraction over all 4096 values of k of the two
  shifted operands; read at row r and column c it is the sum over k of (A[r, k] − z) · (B[k, c] − z), which is the
  specification's definition.
-/
import proofs.«144084_j31842887533435_2_alg».proof.Proof.Gen.ReferenceIdeal.Read
import proofs.«144084_j31842887533435_2_alg».proof.Proof.Spec

noncomputable section

open Idealize.ShloMosaic Idealize.ShloMosaic.ValueIdx
open scoped BigOperators

namespace Cert.ReferenceIdeal.RefValue

open Cert.ReferenceIdeal Cert.ReferenceIdeal.Read

/-- The reference's result, as a function of its two arguments, is the shifted product entry by entry. -/
theorem result_eq (A B : Cert.Spec.Sq.Idx → EReal) :
    val_main_v4 (F := Ideal) A B = Cert.Spec.qmm A B := by
  funext i
  rw [val_main_v4_apply]
  unfold Cert.Spec.qmm
  refine Finset.sum_congr rfl fun k _ => ?_
  have el : lidx_main_v4 i k = ix2 (n0 := 4096) (n1 := 4096) (i 0) k := funext fun a => by
    match a with
    | ⟨0, _⟩ => rfl
    | ⟨1, _⟩ => rfl
  have er : ridx_main_v4 i k = ix2 (n0 := 4096) (n1 := 4096) k (i 1) := funext fun a => by
    match a with
    | ⟨0, _⟩ => rfl
    | ⟨1, _⟩ => rfl
  rw [val_main_v1_apply, val_main_v3_apply, val_main_v0_apply, val_main_v2_apply, val_main_cst_apply,
    val_main_cst_0_apply, el, er]
  unfold Cert.Spec.term
  rw [Cert.Spec.at2_ix2 A (i 0) k, Cert.Spec.at2_ix2 B k (i 1)]
  rfl

end Cert.ReferenceIdeal.RefValue

end
-- ==== Proof.lean ====
/-
  A quantized matrix product, (A − z)(B − z) with zero point z = 128, over 4096 × 4096 operands.

  The kernel tiles the output into 4 × 2 blocks of 1024 × 2048 and, for each, runs sixteen grid points over the
  contraction axis in blocks of 256: the first point of a run zeroes an accumulator, every point adds the product of
  its two shifted operand blocks, and the block is written back after the run's last point. The reference shifts
  the whole operands and takes one contraction over all 4096 indices. At the ideal values narrowing to bf16 is the
  identity, the bf16 and f32 spellings of 128 are one number, and a sum over 4096 = 16 · 256 indices is the sum of
  its sixteen block sums in the extended reals' commutative monoid: both results are the same function of the
  arguments, entry by entry, and the precondition is not used.

  The three frames are the generated frame runs; the ideal pass rewrote nothing, so the kernel's idealization is
  its own text.
-/
import proofs.«144084_j31842887533435_2_alg».proof.Defs
import proofs.«144084_j31842887533435_2_alg».proof.Proof.Gen.Kernel
import proofs.«144084_j31842887533435_2_alg».proof.Proof.Gen.Kernel.Skeleton
import proofs.«144084_j31842887533435_2_alg».proof.Proof.Gen.Kernel.Launch
import proofs.«144084_j31842887533435_2_alg».proof.Proof.Gen.Kernel.Points
import proofs.«144084_j31842887533435_2_alg».proof.Proof.Gen.Kernel.Frame
import proofs.«144084_j31842887533435_2_alg».proof.Proof.Gen.KernelIdeal
import proofs.«144084_j31842887533435_2_alg».proof.Proof.Gen.KernelIdeal.Skeleton
import proofs.«144084_j31842887533435_2_alg».proof.Proof.Gen.KernelIdeal.Launch
import proofs.«144084_j31842887533435_2_alg».proof.Proof.Gen.KernelIdeal.Points
import proofs.«144084_j31842887533435_2_alg».proof.Proof.Gen.KernelIdeal.Frame
import proofs.«144084_j31842887533435_2_alg».proof.Proof.Gen.ReferenceIdeal
import proofs.«144084_j31842887533435_2_alg».proof.Proof.Gen.Pre_finite_inputs
import proofs.«144084_j31842887533435_2_alg».proof.Proof.Gen.KernelIdeal.Value
import proofs.«144084_j31842887533435_2_alg».proof.Proof.Gen.ReferenceIdeal.Run
import proofs.«144084_j31842887533435_2_alg».proof.Proof.Gen.ReferenceIdeal.Read
import proofs.«144084_j31842887533435_2_alg».proof.Proof.Final
import proofs.«144084_j31842887533435_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the shifted product of the arguments: the kernel by its sixteen-block accumulation,
    the reference by its one contraction. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2]
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
